-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S64x4096 : Shape := ⟨2, ![64, 4096]⟩
abbrev S4096x32 : Shape := ⟨2, ![4096, 32]⟩
abbrev S32x4096 : Shape := ⟨2, ![32, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S4096x32 : S_.BroadcastsInDim S4096x32 (![] : Fin 0 → Fin S4096x32.rank)
  reducesTo_S4096x32_S_d0_1 : S4096x32.ReducesTo [0, 1] S_
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : FVec F S4096 .f32) (main_arg6 : FVec F S4096 .f32) (main_v13 : IVec S_ 1) (main_v16 : IVec S32x4096 1) : IVec S_ 1 :=
  let main_c_5 : IVec S_ 1 := constantI S_ 1 1#1
  let main_v17 : IVec S_ 1 := (fun x v => Host.reduce IntOp.andi x v reducesTo_S32x4096_S_d0_1 h_S_) main_v16 main_c_5
  let main_v18 : IVec S_ 1 := andi main_v13 main_v17
  let main_v19 : FVec F S4096 .f32 := Host.absf main_arg5
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg6
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S4096x4096 .f32) (main_arg1 : IVec S4096x4096 32) (main_arg2 : FVec F S64x4096 .f32) (main_arg3 : FVec F S4096x32 .f32) (main_arg4 : FVec F S32x4096 .f32) (main_arg5 : FVec F S4096 .f32) (main_arg6 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S64x4096 .f32 := Host.absf main_arg2
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S4096x32 .f32 := Host.absf main_arg3
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S32x4096 .f32 := Host.absf main_arg4
  let main_cst_4 : FVec F S_ .f32 := constant S_ .f32 0x7F800000#32
  let main_v15 : FVec F S32x4096 .f32 := broadcastInDim S32x4096 ![] bcast_S_S32x4096 main_cst_4
  let main_v16 : IVec S32x4096 1 := cmpf .olt main_v14 main_v15
  fn_part1 (F := F) main_arg5 main_arg6 main_v13 main_v16
-- ==== Kernel.lean ====
abbrev S4096x4096 : Shape := ⟨2, ![4096, 4096]⟩
abbrev S64x4096 : Shape := ⟨2, ![64, 4096]⟩
abbrev S4096x32 : Shape := ⟨2, ![4096, 32]⟩
abbrev S32x4096 : Shape := ⟨2, ![32, 4096]⟩
abbrev S4096 : Shape := ⟨1, ![4096]⟩
abbrev S1x4096 : Shape := ⟨2, ![1, 4096]⟩
abbrev S4096x64x64 : Shape := ⟨3, ![4096, 64, 64]⟩
abbrev S_ : Shape := ⟨0, ![]⟩
abbrev S4096x64 : Shape := ⟨2, ![4096, 64]⟩
abbrev S4096x64x1 : Shape := ⟨3, ![4096, 64, 1]⟩
abbrev S64x64x4096 : Shape := ⟨3, ![64, 64, 4096]⟩
abbrev S64x1x4096 : Shape := ⟨3, ![64, 1, 4096]⟩
abbrev S1024x1024 : Shape := ⟨2, ![1024, 1024]⟩
abbrev S1024x32 : Shape := ⟨2, ![1024, 32]⟩
abbrev S32x1024 : Shape := ⟨2, ![32, 1024]⟩
abbrev S1x1024 : Shape := ⟨2, ![1, 1024]⟩

abbrev nBuf : Space → Nat
  | .hbm => 47
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S4096x4096, .i32⟩
  | .hbm, ⟨2, _⟩ => ⟨S64x4096, .f32⟩
  | .hbm, ⟨3, _⟩ => ⟨S4096x32, .f32⟩
  | .hbm, ⟨4, _⟩ => ⟨S32x4096, .f32⟩
  | .hbm, ⟨5, _⟩ => ⟨S4096, .f32⟩
  | .hbm, ⟨6, _⟩ => ⟨S4096, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S4096x64x64, .f32⟩
  | .hbm, ⟨11, _⟩ => ⟨S4096x64x64, .f32⟩
  | .hbm, ⟨12, _⟩ => ⟨S_, .f32⟩
  | .hbm, ⟨13, _⟩ => ⟨S4096x64, .f32⟩
  | .hbm, ⟨14, _⟩ => ⟨S_, .f32⟩
  | .hbm, ⟨15, _⟩ => ⟨S4096x64, .f32⟩
  | .hbm, ⟨16, _⟩ => ⟨S4096x64, .f32⟩
  | .hbm, ⟨17, _⟩ => ⟨S_, .f32⟩
  | .hbm, ⟨18, _⟩ => ⟨S4096x64, .f32⟩
  | .hbm, ⟨19, _⟩ => ⟨S4096x64, .f32⟩
  | .hbm, ⟨20, _⟩ => ⟨S4096x64x1, .f32⟩
  | .hbm, ⟨21, _⟩ => ⟨S4096x64x64, .f32⟩
  | .hbm, ⟨22, _⟩ => ⟨S4096x64x64, .f32⟩
  | .hbm, ⟨23, _⟩ => ⟨S4096x64x64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4096x64x64, .f32⟩
  | .hbm, ⟨28, _⟩ => ⟨S4096x64x64, .f32⟩
  | .hbm, ⟨29, _⟩ => ⟨S_, .f32⟩
  | .hbm, ⟨30, _⟩ => ⟨S4096x64x64, .f32⟩
  | .hbm, ⟨31, _⟩ => ⟨S4096x64x64, .f32⟩
  | .hbm, ⟨32, _⟩ => ⟨S4096x64x1, .f32⟩
  | .hbm, ⟨33, _⟩ => ⟨S4096x64x64, .f32⟩
  | .hbm, ⟨34, _⟩ => ⟨S4096x64x64, .f32⟩
  | .hbm, ⟨35, _⟩ => ⟨S4096x4096, .f32⟩
  | .hbm, ⟨36, _⟩ => ⟨S4096x4096, .bf16⟩
  | .hbm, ⟨37, _⟩ => ⟨S4096x4096, .f32⟩
  | .hbm, ⟨38, _⟩ => ⟨S64x64x4096, .f32⟩
  | .hbm, ⟨39, _⟩ => ⟨S64x1x4096, .f32⟩
  | .hbm, ⟨40, _⟩ => ⟨S64x64x4096, .f32⟩
  | .hbm, ⟨41, _⟩ => ⟨S64x64x4096, .f32⟩
  | .hbm, ⟨42, _⟩ => ⟨S4096x4096, .f32⟩
  | .hbm, ⟨43, _⟩ => ⟨S4096x4096, .bf16⟩
  | .hbm, ⟨44, _⟩ => ⟨S4096x32, .f32⟩
  | .hbm, ⟨45, _⟩ => ⟨S1x4096, .f32⟩
  | .hbm, ⟨46, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x32, .f32⟩
  | .local _ .vmem, ⟨5, _⟩ => ⟨S1024x32, .f32⟩
  | .local _ .vmem, ⟨6, _⟩ => ⟨S32x1024, .f32⟩
  | .local _ .vmem, ⟨7, _⟩ => ⟨S32x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_cst : Ref sig .tc := ⟨.hbm, 12, rfl⟩
abbrev main_call0_v5 : Ref sig .tc := ⟨.hbm, 13, rfl⟩
abbrev main_call0_cst_0 : Ref sig .tc := ⟨.hbm, 14, rfl⟩
abbrev main_call0_v6 : Ref sig .tc := ⟨.hbm, 15, rfl⟩
abbrev main_call0_v7 : Ref sig .tc := ⟨.hbm, 16, rfl⟩
abbrev main_call0_cst_1 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_cst_2 : Ref sig .tc := ⟨.hbm, 24, rfl⟩
abbrev main_call0_cst_3 : Ref sig .tc := ⟨.hbm, 25, rfl⟩
abbrev main_call0_call1_v0 : Ref sig .tc := ⟨.hbm, 26, rfl⟩
abbrev main_call0_call1_v1 : Ref sig .tc := ⟨.hbm, 27, rfl⟩
abbrev main_call0_call1_v2 : Ref sig .tc := ⟨.hbm, 28, rfl⟩
abbrev main_call0_call1_v3 : Ref sig .tc := ⟨.hbm, 29, rfl⟩
abbrev main_call0_call1_v4 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_call0_v17 : Ref sig .tc := ⟨.hbm, 34, rfl⟩
abbrev main_call0_v18 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_v23 : Ref sig .tc := ⟨.hbm, 40, rfl⟩
abbrev main_call0_v24 : Ref sig .tc := ⟨.hbm, 41, rfl⟩
abbrev main_call0_v25 : Ref sig .tc := ⟨.hbm, 42, rfl⟩
abbrev main_call0_v26 : Ref sig .tc := ⟨.hbm, 43, rfl⟩
abbrev main_call0_v27 : Ref sig .tc := ⟨.hbm, 44, rfl⟩
abbrev main_call0_v28 : Ref sig .tc := ⟨.hbm, 45, rfl⟩
abbrev main_v0 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  shapeCasts_S4096x4096_S4096x64x64 : S4096x4096.ShapeCasts S4096x64x64
  reducesTo_S4096x64x64_S4096x64_d2 : S4096x64x64.ReducesTo [2] S4096x64
  h_S_ : 0 < S_.numel
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  bcast_S4096x64x1_S4096x64x64_0_1_2 : S4096x64x1.BroadcastsInDim S4096x64x64 (![0, 1, 2] : Fin 3 → Fin S4096x64x64.rank)
  bcast_S_S4096x64x64 : S_.BroadcastsInDim S4096x64x64 (![] : Fin 0 → Fin S4096x64x64.rank)
  shapeCasts_S4096x64x64_S4096x4096 : S4096x64x64.ShapeCasts S4096x4096
  bitsLt_bf16_f32 : FTy.bits .bf16 < FTy.bits .f32
  shapeCasts_S4096x4096_S64x64x4096 : S4096x4096.ShapeCasts S64x64x4096
  shapeCasts_S64x4096_S64x1x4096 : S64x4096.ShapeCasts S64x1x4096
  bcast_S64x1x4096_S64x64x4096_0_1_2 : S64x1x4096.BroadcastsInDim S64x64x4096 (![0, 1, 2] : Fin 3 → Fin S64x64x4096.rank)
  shapeCasts_S64x64x4096_S4096x4096 : S64x64x4096.ShapeCasts S4096x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S32x1024_S32x1024_0_0 : ∀ a, (![0, 0] : Fin 2 → Nat) a + S32x1024.size a ≤ S32x1024.size a
  h_S32x1024 : 0 < S32x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S4096x4096_S4096x32_S4096x32_1_0_0_1_n_n_wf : DotDims.WF S4096x4096 S4096x32 S4096x32 [1] [0] [0] [1] [] []
  dot_S1024x1024_S1024x1024_S1024x1024_1_0_0_1_n_n_wf : DotDims.WF S1024x1024 S1024x1024 S1024x1024 [1] [0] [0] [1] [] []
  dot_S1024x32_S32x1024_S1024x1024_1_0_0_1_n_n_wf : DotDims.WF S1024x32 S32x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S4096x32.size a
  hwx0_2 : ∀ i : grid0.Coords, EltTy.bits .f32 = 32 ∨ (Rect.block (s := S4096x32) S1024x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1024.size a ≤ S32x4096.size a
  hwx0_3 : ∀ i : grid0.Coords, EltTy.bits .f32 = 32 ∨ (Rect.block (s := S32x4096) S32x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S4096x4096.size a
  hwx0_5 : ∀ i : grid0.Coords, EltTy.bits .f32 = 32 ∨ (Rect.block (s := S4096x4096) S1024x1024.size (cc0_transform_5 i) (hinb0_5 i)).WholeWords (EltTy.packing .f32)

variable [Facts₀]

def dot_S4096x4096_S4096x32_S4096x32_1_0_0_1_n_n : DotDims S4096x4096 S4096x32 S4096x32 where
  lhsContracting := [1]
  rhsContracting := [0]
  lhsNonContracting := [0]
  rhsNonContracting := [1]
  lhsBatch := []
  rhsBatch := []
  wf := dot_S4096x4096_S4096x32_S4096x32_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x32_S32x1024_S1024x1024_1_0_0_1_n_n : DotDims S1024x32 S32x1024 S1024x1024 where
  lhsContracting := [1]
  rhsContracting := [0]
  lhsNonContracting := [0]
  rhsNonContracting := [1]
  lhsBatch := []
  rhsBatch := []
  wf := dot_S1024x32_S32x1024_S1024x1024_1_0_0_1_n_n_wf

abbrev win0_0 : Pipeline.Window sig grid0 :=
  Pipeline.Window.ofSpec (Memref.whole main_call0_v19) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v26) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v27) S1024x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S32x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v28) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x4096 : Shape := ⟨2, ![4096, 4096]⟩
abbrev S64x4096 : Shape := ⟨2, ![64, 4096]⟩
abbrev S4096x32 : Shape := ⟨2, ![4096, 32]⟩
abbrev S32x4096 : Shape := ⟨2, ![32, 4096]⟩
abbrev S4096 : Shape := ⟨1, ![4096]⟩
abbrev S1x4096 : Shape := ⟨2, ![1, 4096]⟩
abbrev S4096x64x64 : Shape := ⟨3, ![4096, 64, 64]⟩
abbrev S_ : Shape := ⟨0, ![]⟩
abbrev S4096x64 : Shape := ⟨2, ![4096, 64]⟩
abbrev S4096x64x1 : Shape := ⟨3, ![4096, 64, 1]⟩
abbrev S64x64x4096 : Shape := ⟨3, ![64, 64, 4096]⟩
abbrev S64x1x4096 : Shape := ⟨3, ![64, 1, 4096]⟩

abbrev nBuf : Space → Nat
  | .hbm => 49
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .i32⟩
  | .hbm, ⟨2, _⟩ => ⟨S64x4096, .f32⟩
  | .hbm, ⟨3, _⟩ => ⟨S4096x32, .f32⟩
  | .hbm, ⟨4, _⟩ => ⟨S32x4096, .f32⟩
  | .hbm, ⟨5, _⟩ => ⟨S4096, .f32⟩
  | .hbm, ⟨6, _⟩ => ⟨S4096, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S4096x64x64, .f32⟩
  | .hbm, ⟨11, _⟩ => ⟨S4096x64x64, .f32⟩
  | .hbm, ⟨12, _⟩ => ⟨S_, .f32⟩
  | .hbm, ⟨13, _⟩ => ⟨S4096x64, .f32⟩
  | .hbm, ⟨14, _⟩ => ⟨S_, .f32⟩
  | .hbm, ⟨15, _⟩ => ⟨S4096x64, .f32⟩
  | .hbm, ⟨16, _⟩ => ⟨S4096x64, .f32⟩
  | .hbm, ⟨17, _⟩ => ⟨S_, .f32⟩
  | .hbm, ⟨18, _⟩ => ⟨S4096x64, .f32⟩
  | .hbm, ⟨19, _⟩ => ⟨S4096x64, .f32⟩
  | .hbm, ⟨20, _⟩ => ⟨S4096x64x1, .f32⟩
  | .hbm, ⟨21, _⟩ => ⟨S4096x64x64, .f32⟩
  | .hbm, ⟨22, _⟩ => ⟨S4096x64x64, .f32⟩
  | .hbm, ⟨23, _⟩ => ⟨S4096x64x64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4096x64x64, .f32⟩
  | .hbm, ⟨28, _⟩ => ⟨S4096x64x64, .f32⟩
  | .hbm, ⟨29, _⟩ => ⟨S_, .f32⟩
  | .hbm, ⟨30, _⟩ => ⟨S4096x64x64, .f32⟩
  | .hbm, ⟨31, _⟩ => ⟨S4096x64x64, .f32⟩
  | .hbm, ⟨32, _⟩ => ⟨S4096x64x1, .f32⟩
  | .hbm, ⟨33, _⟩ => ⟨S4096x64x64, .f32⟩
  | .hbm, ⟨34, _⟩ => ⟨S4096x64x64, .f32⟩
  | .hbm, ⟨35, _⟩ => ⟨S4096x4096, .f32⟩
  | .hbm, ⟨36, _⟩ => ⟨S4096x4096, .f32⟩
  | .hbm, ⟨37, _⟩ => ⟨S64x64x4096, .f32⟩
  | .hbm, ⟨38, _⟩ => ⟨S64x1x4096, .f32⟩
  | .hbm, ⟨39, _⟩ => ⟨S64x64x4096, .f32⟩
  | .hbm, ⟨40, _⟩ => ⟨S64x64x4096, .f32⟩
  | .hbm, ⟨41, _⟩ => ⟨S4096x4096, .f32⟩
  | .hbm, ⟨42, _⟩ => ⟨S4096x4096, .f32⟩
  | .hbm, ⟨43, _⟩ => ⟨S4096x32, .f32⟩
  | .hbm, ⟨44, _⟩ => ⟨S4096x4096, .f32⟩
  | .hbm, ⟨45, _⟩ => ⟨S4096x4096, .f32⟩
  | .hbm, ⟨46, _⟩ => ⟨S1x4096, .f32⟩
  | .hbm, ⟨47, _⟩ => ⟨S4096x4096, .f32⟩
  | .hbm, ⟨48, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  shapeCasts_S4096x4096_S4096x64x64 : S4096x4096.ShapeCasts S4096x64x64
  reducesTo_S4096x64x64_S4096x64_d2 : S4096x64x64.ReducesTo [2] S4096x64
  h_S_ : 0 < S_.numel
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  bcast_S4096x64x1_S4096x64x64_0_1_2 : S4096x64x1.BroadcastsInDim S4096x64x64 (![0, 1, 2] : Fin 3 → Fin S4096x64x64.rank)
  bcast_S_S4096x64x64 : S_.BroadcastsInDim S4096x64x64 (![] : Fin 0 → Fin S4096x64x64.rank)
  shapeCasts_S4096x64x64_S4096x4096 : S4096x64x64.ShapeCasts S4096x4096
  shapeCasts_S4096x4096_S64x64x4096 : S4096x4096.ShapeCasts S64x64x4096
  bcast_S64x4096_S64x1x4096_0_2 : S64x4096.BroadcastsInDim S64x1x4096 (![0, 2] : Fin 2 → Fin S64x1x4096.rank)
  bcast_S64x1x4096_S64x64x4096_0_1_2 : S64x1x4096.BroadcastsInDim S64x64x4096 (![0, 1, 2] : Fin 3 → Fin S64x64x4096.rank)
  shapeCasts_S64x64x4096_S4096x4096 : S64x64x4096.ShapeCasts S4096x4096
  dot_S4096x4096_S4096x4096_S4096x4096_1_0_0_1_n_n_wf : DotDims.WF S4096x4096 S4096x4096 S4096x4096 [1] [0] [0] [1] [] []
  dot_S4096x4096_S4096x32_S4096x32_1_0_0_1_n_n_wf : DotDims.WF S4096x4096 S4096x32 S4096x32 [1] [0] [0] [1] [] []
  dot_S4096x32_S32x4096_S4096x4096_1_0_0_1_n_n_wf : DotDims.WF S4096x32 S32x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x32_S4096x32_1_0_0_1_n_n : DotDims S4096x4096 S4096x32 S4096x32 where
  lhsContracting := [1]
  rhsContracting := [0]
  lhsNonContracting := [0]
  rhsNonContracting := [1]
  lhsBatch := []
  rhsBatch := []
  wf := dot_S4096x4096_S4096x32_S4096x32_1_0_0_1_n_n_wf
def dot_S4096x32_S32x4096_S4096x4096_1_0_0_1_n_n : DotDims S4096x32 S32x4096 S4096x4096 where
  lhsContracting := [1]
  rhsContracting := [0]
  lhsNonContracting := [0]
  rhsNonContracting := [1]
  lhsBatch := []
  rhsBatch := []
  wf := dot_S4096x32_S32x4096_S4096x4096_1_0_0_1_n_n_wf

class Facts : Prop extends Facts₀ where

variable [Facts]
-- ==== Proof.Pieces.lean ====
/-
  What the kernel body leaves behind at one grid point, as values of the blocks it loaded.  The grid runs over
  (row tile, column tile, contraction tile); the accumulator is a scratch block carried along the contraction axis.
  At the first contraction tile it is reset to zero and the tile's product added; at the later ones the tile's product
  is added to what was there; at the last one the epilogue also writes the output block: accumulator plus the low-rank
  product plus the bias row.  Each lemma reads the one store that covers the block back as its stored value.
-/
import proofs.«168063_j67439576481968_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F]

theorem hz : (![0, 0] : Fin 2 → Nat) = fun _ => 0 := funext fun a => by fin_cases a <;> rfl

/-- At a point between the first and the last of a run the body reads the accumulator, adds the product of the two
    blocks and stores the sum back: the accumulator it leaves is that one store's value of the three loaded blocks. -/
theorem sout_B (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x32 .f32) (h5 : a5.IsWhole) (a6 : Memref sig .tc .vmem S32x1024 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : ¬cond0_0 i) (hc1 : ¬cond0_1 i) (x0 : Vec F S1024x1024 .bf16) (x1 : Vec F S1024x1024 .bf16) (x2 : Vec F S1024x32 .f32) (x3 : Vec F S32x1024 .f32) (x4 : Vec F S1x1024 .f32) (xs0 : Vec F S1024x1024 .f32) :
    sout0_B_0 c i a3 h3 a4 h4 a5 h5 a6 h6 a7 h7 a8 h8 a9 h9 hc0 hc1 x0 x1 x2 x3 x4 xs0 = k0_pay2 xs0 x0 x1 := by
  unfold sout0_B_0
  rw [View.read_writes_eq_canon _ _ _ (scover0_B_0 c i a3 h3 a4 h4 a5 h5 a6 h6 a7 h7 a8 h8 a9 h9 hc0 hc1 x0 x1 x2 x3 x4 xs0)]
  unfold kernelRun0_B
  dsimp only
  rw [View.canon_unit_zero hz]
  simp only [View.readAt_eq_ld, h9.read_unread, h3.read_unread, h4.read_unread, View.ld_unit_zero (S := S1024x1024) hz]

/-- At the first point of a run the body first stores the zero block into the accumulator, reads it back, and then
    accumulates: the accumulator is left at zero plus the product of the two blocks. -/
theorem sout_A (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x32 .f32) (h5 : a5.IsWhole) (a6 : Memref sig .tc .vmem S32x1024 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : cond0_0 i) (hc1 : ¬cond0_1 i) (x0 : Vec F S1024x1024 .bf16) (x1 : Vec F S1024x1024 .bf16) (x2 : Vec F S1024x32 .f32) (x3 : Vec F S32x1024 .f32) (x4 : Vec F S1x1024 .f32) :
    sout0_A_0 c i a3 h3 a4 h4 a5 h5 a6 h6 a7 h7 a8 h8 a9 h9 hc0 hc1 x0 x1 x2 x3 x4 = k0_pay2 k0_pay1 x0 x1 := by
  unfold sout0_A_0
  rw [View.read_writes_eq_canon _ _ _ (scover0_A_0 c i a3 h3 a4 h4 a5 h5 a6 h6 a7 h7 a8 h8 a9 h9 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- At the last point of a run the accumulator is updated as at every other point … -/
theorem sout_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x32 .f32) (h5 : a5.IsWhole) (a6 : Memref sig .tc .vmem S32x1024 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : ¬cond0_0 i) (hc1 : cond0_1 i) (x0 : Vec F S1024x1024 .bf16) (x1 : Vec F S1024x1024 .bf16) (x2 : Vec F S1024x32 .f32) (x3 : Vec F S32x1024 .f32) (x4 : Vec F S1x1024 .f32) (xs0 : Vec F S1024x1024 .f32) :
    sout0_C_0 c i a3 h3 a4 h4 a5 h5 a6 h6 a7 h7 a8 h8 a9 h9 hc0 hc1 x0 x1 x2 x3 x4 xs0 = k0_pay2 xs0 x0 x1 := by
  unfold sout0_C_0
  rw [View.read_writes_eq_canon _ _ _ (scover0_C_0 c i a3 h3 a4 h4 a5 h5 a6 h6 a7 h7 a8 h8 a9 h9 hc0 hc1 x0 x1 x2 x3 x4 xs0)]
  unfold kernelRun0_C
  dsimp only
  sl_unfold_words
  rw [View.canon_unit_zero hz]
  simp only [View.readAt_eq_ld, h9.read_unread, h3.read_unread, h4.read_unread, View.ld_unit_zero (S := S1024x1024) hz]

/-- … and the output block is the epilogue's one store: the low-rank product of the two small blocks added to the
    accumulator just stored, plus the bias row spread over the rows. -/
theorem out_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x32 .f32) (h5 : a5.IsWhole) (a6 : Memref sig .tc .vmem S32x1024 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : ¬cond0_0 i) (hc1 : cond0_1 i) (x0 : Vec F S1024x1024 .bf16) (x1 : Vec F S1024x1024 .bf16) (x2 : Vec F S1024x32 .f32) (x3 : Vec F S32x1024 .f32) (x4 : Vec F S1x1024 .f32) (xs0 : Vec F S1024x1024 .f32) :
    out0_C_5 c i a3 h3 a4 h4 a5 h5 a6 h6 a7 h7 a8 h8 a9 h9 hc0 hc1 x0 x1 x2 x3 x4 xs0 = k0_pay3 x2 x3 (k0_pay2 xs0 x0 x1) x4 := by
  unfold out0_C_5
  rw [View.read_writes_eq_canon _ _ _ (cover0_C_5 c i a3 h3 a4 h4 a5 h5 a6 h6 a7 h7 a8 h8 a9 h9 hc0 hc1 x0 x1 x2 x3 x4 xs0)]
  unfold kernelRun0_C
  dsimp only
  sl_unfold_words
  rw [View.canon_unit_zero hz, View.readCov_unit_zero (S := S1024x1024) _ hz]
  simp only [View.readAt_eq_ld, h9.read_unread, h3.read_unread, h4.read_unread, h5.read_unread, h6.read_unread, h7.read_unread,
    View.ld_unit_zero (S := S1024x1024) hz, View.ld_unit_zero (S := S1024x32) hz, View.ld_unit_zero (S := S32x1024) hz,
    View.ld_unit_zero (S := S1x1024) hz]

end Cert.KernelIdeal.Hand
end
-- ==== Proof.LibMatmulAt.lean ====
/-
  A matrix product accumulated into the zero splat, read at an index. With the standard dimension numbers (an M × K
  matrix times a K × N one, contracted over the left operand's columns and the right operand's rows) the entry at row `a`
  and column `b` is the sum over the contracted coordinate `k` of A(a, k) · B(k, b). At the ideal values, where the
  product is that exact sum; nothing here depends on a program.
-/
import Idealize.ShloMosaic.Lib.StackMember
import Idealize.ShloMosaic.Lib.ValueIdx
import Idealize.ShloMosaic.Lib.KernelVsHost
import Idealize.ShloMosaic.PureOps.Ideal.Laws

namespace Cert.KernelIdeal.Hand

open Idealize.ShloMosaic Idealize.ShloMosaic.ValueIdx

/-- A record of dimension numbers equal to the plain ones (its lists are `[1] [0] [0] [1] [] []`; the equation is `rfl`
    at a literal record, whatever its well-formedness proof): the product into the zero splat is, entry by entry, the
    sum over the contracted coordinate of the entries' products. -/
theorem matmul_zero_plain_apply {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    matmul d prec A B (constant ⟨2, ![M, N]⟩ .f32 0x00000000#32) j = ∑ k : Fin K, A (ix2 (j 0) k) * B (ix2 k (j 1)) := by
  subst hd
  rw [matmul_zero_eq_dotGeneral]
  conv_lhs => rw [eq_ix2 j]
  exact StackMember.dotGeneral_plain_apply prec A B (j 0) (j 1)

/-- The host's product with the same dimension numbers is the same sum. -/
theorem dotGeneral_plain_apply' {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    Host.dotGeneral d prec A B j = ∑ k : Fin K, A (ix2 (j 0) k) * B (ix2 k (j 1)) := by
  subst hd
  conv_lhs => rw [eq_ix2 j]
  exact StackMember.dotGeneral_plain_apply prec A B (j 0) (j 1)

end Cert.KernelIdeal.Hand
-- ==== Proof.PayAt.lean ====
/-
  The body's three stored values read at one entry, on the extended reals.  The zero block is 0 everywhere; one
  accumulation step adds to the accumulator's entry (p, s) the sum over l of A(p, l) · B(l, s) of the two loaded
  blocks (the matrix product into the zero block is that sum, and the change of float format on the way is the
  identity); the epilogue's value at (p, s) is the accumulator's entry plus the sum over r of D(p, r) · U(r, s) of the
  two low-rank blocks, plus the bias row's entry s.
-/
import proofs.«168063_j67439576481968_2_alg».proof.Proof.Gen.KernelIdeal.Skeleton
import proofs.«168063_j67439576481968_2_alg».proof.Proof.LibMatmulAt
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Hand

open Cert.KernelIdeal Cert.KernelIdeal.Gen

/-- The reset block is zero at every entry. -/
theorem pay1_apply (j : S1024x1024.Idx) : k0_pay1 (F := Ideal) j = 0 := by
  unfold k0_pay1
  rw [shapeCast_self]
  exact Ideal.ofBits_zero_f32

/-- The contraction of two square blocks at an entry of the tile: the sum over l of A(p, l) · B(l, s). -/
def contr (A B : Vec Ideal S1024x1024 .bf16) (j : S1024x1024.Idx) : EReal :=
  ∑ l : Fin 1024, A (ix2 (j 0) l) * B (ix2 l (j 1))

theorem contr_apply (A B : Vec Ideal S1024x1024 .bf16) (p s : Fin 1024) :
    contr A B (ix2 p s) = ∑ l : Fin 1024, A (ix2 p l) * B (ix2 l s) := rfl

/-- One accumulation step at an entry: the accumulator's entry plus the contraction of the two blocks. -/
theorem pay2_apply (acc : Vec Ideal S1024x1024 .f32) (a b : Vec Ideal S1024x1024 .bf16) (p s : Fin 1024) :
    k0_pay2 (F := Ideal) acc a b (ix2 p s) = acc (ix2 p s) + ∑ l : Fin 1024, a (ix2 p l) * b (ix2 l s) := by
  unfold k0_pay2
  simp only [shapeCast_self]
  exact congrArg (acc (ix2 p s) + ·)
    (matmul_zero_plain_apply dot_S1024x1024_S1024x1024_S1024x1024_1_0_0_1_n_n rfl none a b (ix2 p s))

/-- The epilogue at an entry: accumulator plus the low-rank contraction, plus the bias row's entry. -/
theorem pay3_apply (x2 : Vec Ideal S1024x32 .f32) (x3 : Vec Ideal S32x1024 .f32) (acc : Vec Ideal S1024x1024 .f32)
    (x4 : Vec Ideal S1x1024 .f32) (p s : Fin 1024) :
    k0_pay3 (F := Ideal) x2 x3 acc x4 (ix2 p s)
      = (acc (ix2 p s) + ∑ r : Fin 32, x2 (ix2 p r) * x3 (ix2 r s)) + x4 (ix2 (0 : Fin 1) s) := by
  unfold k0_pay3
  simp only [shapeCast_self]
  refine congrArg₂ (· + ·) (congrArg (acc (ix2 p s) + ·)
    (matmul_zero_plain_apply dot_S1024x32_S32x1024_S1024x1024_1_0_0_1_n_n rfl none
      (truncf .bf16 x2 bitsLt_bf16_f32) (truncf .bf16 x3 bitsLt_bf16_f32) (ix2 p s))) ?_
  exact broadcastTo_1b_ab_apply x4 broadcasts_S1x1024_S1024x1024 p s

end Cert.KernelIdeal.Hand
end
-- ==== Proof.Fold.lean ====
/-
  The accumulator along one run of the contraction axis, and the output block written at the run's last point.
  A run is four consecutive grid points 4q, 4q+1, 4q+2, 4q+3 (one output tile, the four contraction tiles in order).
  After the run's last point the accumulator's entry is 0 plus the sum over the four points of that point's addend,
  the contraction of the point's two loaded blocks; the output block is the epilogue's value over that accumulator.
-/
import proofs.«168063_j67439576481968_2_alg».proof.Proof.Gen.KernelIdeal.Value
import proofs.«168063_j67439576481968_2_alg».proof.Proof.Pieces
import proofs.«168063_j67439576481968_2_alg».proof.Proof.PayAt

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

section AnyValues

variable {F : FTy → Type} [FloatOps F]
variable (m : (ℓ : Loc nD τ sig) → Buf (Elt F) ℓ)

/-- What any point leaves in the accumulator over what the point before left: one accumulation step of the point's two
    blocks, from the zero block at the first point of a run and from the carried contents elsewhere. -/
theorem scAt_eq (c : Dev nD) (n : ℕ) (hb : n < cfg0.N) (acc : Vec F S1024x1024 .f32) :
    Value.scAt0_0 m c n hb acc
      = k0_pay2 (if n % 4 = 0 then k0_pay1 else acc) (iblk m c 0 ⟨n, hb⟩) (iblk m c 1 ⟨n, hb⟩) := by
  unfold Value.scAt0_0
  by_cases h0 : n % 4 = 0
  · have h1 : ¬n % 4 = 3 := by omega
    rw [dif_pos h0, dif_neg h1, if_pos h0]
    exact sout_A (F := F) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))
  · by_cases h1 : n % 4 = 3
    · rw [dif_neg h0, dif_pos h1, if_neg h0]
      exact sout_C (F := F) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc
    · rw [dif_neg h0, dif_neg h1, if_neg h0]
      exact sout_B (F := F) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc

/-- At the last point of a run the output block is the epilogue's value of the point's three small blocks over the
    accumulator the same point leaves. -/
theorem out_last (c : Dev nD) (t : Fin cfg0.N) (h3 : t.val % 4 = 3) :
    (outsAt0 m c t.val t.isLt).1
      = k0_pay3 (iblk m c 2 t) (iblk m c 3 t) ((outsAt0 m c t.val t.isLt).2) (iblk m c 4 t) := by
  have h0 : ¬t.val % 4 = 0 := by omega
  rw [outsAt0_C m c t h0 h3]
  dsimp only
  rw [out_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (iblk m c 0 t) (iblk m c 1 t) (iblk m c 2 t) (iblk m c 3 t) (iblk m c 4 t) _, sout_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (iblk m c 0 t) (iblk m c 1 t) (iblk m c 2 t) (iblk m c 3 t) (iblk m c 4 t) _]

end AnyValues

section Ideal

variable (m : (ℓ : Loc nD τ sig) → Buf (Elt Ideal) ℓ)

/-- Point `n`'s addend at an entry of the tile: the contraction of the point's activation block and weight block
    (zero past the grid, where it is never used). -/
def addend (c : Dev nD) (n : ℕ) (j : S1024x1024.Idx) : EReal :=
  if h : n < cfg0.N then contr (iblk m c 0 ⟨n, h⟩) (iblk m c 1 ⟨n, h⟩) j else 0

theorem addend_apply (c : Dev nD) (n : ℕ) (h : n < cfg0.N) (j : S1024x1024.Idx) :
    addend m c n j = contr (iblk m c 0 ⟨n, h⟩) (iblk m c 1 ⟨n, h⟩) j := by
  unfold addend
  rw [dif_pos h]

/-- One accumulation step at an entry. -/
theorem step_apply (c : Dev nD) (n : ℕ) (h : n < cfg0.N) (acc : Vec Ideal S1024x1024 .f32) (p s : Fin 1024) :
    k0_pay2 (F := Ideal) acc (iblk m c 0 ⟨n, h⟩) (iblk m c 1 ⟨n, h⟩) (ix2 p s) = acc (ix2 p s) + addend m c n (ix2 p s) := by
  rw [addend_apply m c n h (ix2 p s)]
  exact pay2_apply acc (iblk m c 0 ⟨n, h⟩) (iblk m c 1 ⟨n, h⟩) p s

/-- The accumulator after the last point of a run, at an entry: the four addends of the run summed from zero. -/
theorem scratch_last (c : Dev nD) (t : Fin cfg0.N) (h3 : t.val % 4 = 3) (p s : Fin 1024) :
    (outsAt0 m c t.val t.isLt).2 (ix2 p s)
      = 0 + ∑ κ ∈ Finset.range 4, addend m c (4 * (t.val / 4) + κ) (ix2 p s) := by
  have hN : cfg0.N = 64 := N_0
  have hb0 : (4 * (t.val / 4)) % 4 = 0 := Nat.mul_mod_right 4 _
  rw [Value.soutsAt0_0_eq m c t]
  have key := Pipeline.accAt_add_apply (N := cfg0.N) (ι := S1024x1024.Idx) (β := EReal)
    (fun n h => Value.scAt0_0 m c n h (VS0_0.read (Elt Ideal) VS0_0.junk)) (Value.scAt0_0 m c)
    (fun _ => (0 : EReal)) (addend m c) (4 * (t.val / 4)) 3
    (fun h i => by
      obtain ⟨p, s, rfl⟩ : ∃ (p s : Fin 1024), i = ix2 p s := ⟨i 0, i 1, eq_ix2 i⟩
      rw [scAt_eq m c _ h, if_pos hb0, step_apply m c _ h _ p s]
      exact congrArg (· + addend m c (4 * (t.val / 4)) (ix2 p s)) (pay1_apply (ix2 p s)))
    (fun n h acc i hlo hhi => by
      obtain ⟨p, s, rfl⟩ : ∃ (p s : Fin 1024), i = ix2 p s := ⟨i 0, i 1, eq_ix2 i⟩
      have hn : ¬n % 4 = 0 := by omega
      rw [scAt_eq m c n h, if_neg hn]
      exact step_apply m c n h acc p s)
    (t.val % 4) (by omega) (by have := t.isLt; have := Nat.div_add_mod t.val 4; omega) (ix2 p s)
  rw [key, h3]

end Ideal

end Cert.KernelIdeal.Hand
end
-- ==== Proof.Blocks.lean ====
/-
  Where each window's block sits in its array.  The grid point t = 16·i + 4·j + k is (row tile i, column tile j,
  contraction tile k).  The activation block is rows 1024·i.., columns 1024·k..; the weight block rows 1024·k..,
  columns 1024·j..; the down-projection block rows 1024·i.. (all 32 columns); the up-projection block columns 1024·j..
  (all 32 rows); the bias block columns 1024·j.. of its one row; the output block rows 1024·i.., columns 1024·j...
  An entry of a block is the array's entry at block index × block size + the entry's own coordinate, on each axis.
-/
import proofs.«168063_j67439576481968_2_alg».proof.Proof.Gen.KernelIdeal.Frame.Runs
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Hand

open Cert.KernelIdeal Cert.KernelIdeal.Gen

/-- The six index maps in closed form, decided over the 64 grid points. -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = 0
    ∧ win0_3.index t (0 : Fin 2) = 0 ∧ win0_3.index t (1 : Fin 2) = t.val / 4 % 4
    ∧ win0_4.index t (0 : Fin 2) = 0 ∧ win0_4.index t (1 : Fin 2) = t.val / 4 % 4
    ∧ win0_5.index t (0 : Fin 2) = t.val / 16 ∧ win0_5.index t (1 : Fin 2) = t.val / 4 % 4 :=
  (by decide +kernel : ∀ t : Fin grid0.N, _)

variable {F : FTy → Type} [FloatOps F]
variable (m : (ℓ : Loc nD τ sig) → Buf (Elt F) ℓ)

/-- The activation block's entry (p, q) is the activations' entry (1024·i + p, 1024·k + q). -/
theorem iblk0_at (c : Dev nD) (t : Fin cfg0.N) (p : Fin 1024) (q : Fin 1024) (P : Fin 4096) (Q : Fin 4096)
    (hP : P.val = 1024 * (t.val / 16) + p.val) (hQ : Q.val = 1024 * (t.val % 4) + q.val) :
    iblk m c 0 t (ix2 p q) = V m c main_call0_v19 (ix2 P Q) := by
  obtain ⟨e00, e01, e10, e11, e20, e21, e30, e31, e40, e41, e50, e51⟩ := idx_facts t
  unfold iblk
  rw [View.read_apply]
  show V m c main_call0_v19 _ = V m c main_call0_v19 _
  refine congrArg (V m c main_call0_v19) (funext fun a => Fin.ext ?_)
  match a with
  | ⟨0, _⟩ => show win0_0.index t (0 : Fin 2) * 1024 + 1 * p.val = P.val; omega
  | ⟨1, _⟩ => show win0_0.index t (1 : Fin 2) * 1024 + 1 * q.val = Q.val; omega

/-- The weight block's entry (p, q) is the weights' entry (1024·k + p, 1024·j + q). -/
theorem iblk1_at (c : Dev nD) (t : Fin cfg0.N) (p : Fin 1024) (q : Fin 1024) (P : Fin 4096) (Q : Fin 4096)
    (hP : P.val = 1024 * (t.val % 4) + p.val) (hQ : Q.val = 1024 * (t.val / 4 % 4) + q.val) :
    iblk m c 1 t (ix2 p q) = V m c main_call0_v26 (ix2 P Q) := by
  obtain ⟨e00, e01, e10, e11, e20, e21, e30, e31, e40, e41, e50, e51⟩ := idx_facts t
  unfold iblk
  rw [View.read_apply]
  show V m c main_call0_v26 _ = V m c main_call0_v26 _
  refine congrArg (V m c main_call0_v26) (funext fun a => Fin.ext ?_)
  match a with
  | ⟨0, _⟩ => show win0_1.index t (0 : Fin 2) * 1024 + 1 * p.val = P.val; omega
  | ⟨1, _⟩ => show win0_1.index t (1 : Fin 2) * 1024 + 1 * q.val = Q.val; omega

/-- The down-projection block's entry (p, q) is the down-projection's entry (1024·i + p, q). -/
theorem iblk2_at (c : Dev nD) (t : Fin cfg0.N) (p : Fin 1024) (q : Fin 32) (P : Fin 4096) (Q : Fin 32)
    (hP : P.val = 1024 * (t.val / 16) + p.val) (hQ : Q.val = 0 + q.val) :
    iblk m c 2 t (ix2 p q) = V m c main_call0_v27 (ix2 P Q) := by
  obtain ⟨e00, e01, e10, e11, e20, e21, e30, e31, e40, e41, e50, e51⟩ := idx_facts t
  unfold iblk
  rw [View.read_apply]
  show V m c main_call0_v27 _ = V m c main_call0_v27 _
  refine congrArg (V m c main_call0_v27) (funext fun a => Fin.ext ?_)
  match a with
  | ⟨0, _⟩ => show win0_2.index t (0 : Fin 2) * 1024 + 1 * p.val = P.val; omega
  | ⟨1, _⟩ => show win0_2.index t (1 : Fin 2) * 32 + 1 * q.val = Q.val; omega

/-- The up-projection block's entry (p, q) is the up-projection's entry (p, 1024·j + q). -/
theorem iblk3_at (c : Dev nD) (t : Fin cfg0.N) (p : Fin 32) (q : Fin 1024) (P : Fin 32) (Q : Fin 4096)
    (hP : P.val = 0 + p.val) (hQ : Q.val = 1024 * (t.val / 4 % 4) + q.val) :
    iblk m c 3 t (ix2 p q) = V m c main_arg4 (ix2 P Q) := by
  obtain ⟨e00, e01, e10, e11, e20, e21, e30, e31, e40, e41, e50, e51⟩ := idx_facts t
  unfold iblk
  rw [View.read_apply]
  show V m c main_arg4 _ = V m c main_arg4 _
  refine congrArg (V m c main_arg4) (funext fun a => Fin.ext ?_)
  match a with
  | ⟨0, _⟩ => show win0_3.index t (0 : Fin 2) * 32 + 1 * p.val = P.val; omega
  | ⟨1, _⟩ => show win0_3.index t (1 : Fin 2) * 1024 + 1 * q.val = Q.val; omega

/-- The bias block's entry (0, q) is the bias row's entry (0, 1024·j + q). -/
theorem iblk4_at (c : Dev nD) (t : Fin cfg0.N) (p : Fin 1) (q : Fin 1024) (P : Fin 1) (Q : Fin 4096)
    (hP : P.val = 0 + p.val) (hQ : Q.val = 1024 * (t.val / 4 % 4) + q.val) :
    iblk m c 4 t (ix2 p q) = V m c main_call0_v28 (ix2 P Q) := by
  obtain ⟨e00, e01, e10, e11, e20, e21, e30, e31, e40, e41, e50, e51⟩ := idx_facts t
  unfold iblk
  rw [View.read_apply]
  show V m c main_call0_v28 _ = V m c main_call0_v28 _
  refine congrArg (V m c main_call0_v28) (funext fun a => Fin.ext ?_)
  match a with
  | ⟨0, _⟩ => show win0_4.index t (0 : Fin 2) * 1 + 1 * p.val = P.val; omega
  | ⟨1, _⟩ => show win0_4.index t (1 : Fin 2) * 1024 + 1 * q.val = Q.val; omega

end Cert.KernelIdeal.Hand
end
-- ==== Proof.HostTerms.lean ====
/-
  The reference's intermediate arrays as whole-array functions of the arguments, each named once so that it can be
  carried unopened: the activations divided by the smoothing row, scaled per group of 64 by the group's largest
  magnitude over 7 (at least 1e-8), rounded to the nearest even integer, clipped to [-8, 7] and scaled back; the integer
  weights converted and multiplied by their group's scale row; the low-rank down-projection; and the result, the sum of
  the two products and the bias row.
-/
import proofs.«168063_j67439576481968_2_alg».proof.Proof.Gen.ReferenceIdeal

noncomputable section

namespace Cert.ReferenceIdeal.Hand

open Cert.ReferenceIdeal Cert.ReferenceIdeal.Gen Idealize.ShloMosaic

variable {F : FTy → Type} [FloatOps F]

/-- The activations smoothed, quantized per group and scaled back: a [4096, 4096] array. -/
def xdq (x : (⟨S4096x4096, .f32⟩ : BufTy).Contents (Elt F)) (sm : (⟨S4096, .f32⟩ : BufTy).Contents (Elt F)) :
    (⟨S4096x4096, .f32⟩ : BufTy).Contents (Elt F) :=
  shapeCast _ (mulf (minimumf (broadcastInDim S4096x64x64 ![] bcast_S_S4096x64x64 (id (constant S_ .f32 0x40E00000#32))) (maximumf (broadcastInDim S4096x64x64 ![] bcast_S_S4096x64x64 (id (constant S_ .f32 0xC1000000#32))) (Host.roundeven (Host.divf (shapeCast _ (Host.divf x (broadcastInDim S4096x4096 ![0, 1] bcast_S1x4096_S4096x4096_0_1 (broadcastInDim S1x4096 ![1] bcast_S4096_S1x4096_1 sm))) shapeCasts_S4096x4096_S4096x64x64) (broadcastInDim S4096x64x64 ![0, 1, 2] bcast_S4096x64x1_S4096x64x64_0_1_2 (broadcastInDim S4096x64x1 ![0, 1] bcast_S4096x64_S4096x64x1_0_1 (maximumf (Host.divf (Host.reduce FloatOps.maximumf (Host.absf (shapeCast _ (Host.divf x (broadcastInDim S4096x4096 ![0, 1] bcast_S1x4096_S4096x4096_0_1 (broadcastInDim S1x4096 ![1] bcast_S4096_S1x4096_1 sm))) shapeCasts_S4096x4096_S4096x64x64)) (constant S_ .f32 0xFF800000#32) reducesTo_S4096x64x64_S4096x64_d2 h_S_) (broadcastInDim S4096x64 ![] bcast_S_S4096x64 (constant S_ .f32 0x40E00000#32))) (broadcastInDim S4096x64 ![] bcast_S_S4096x64 (constant S_ .f32 0x322BCC77#32))))))))) (broadcastInDim S4096x64x64 ![0, 1, 2] bcast_S4096x64x1_S4096x64x64_0_1_2 (broadcastInDim S4096x64x1 ![0, 1] bcast_S4096x64_S4096x64x1_0_1 (maximumf (Host.divf (Host.reduce FloatOps.maximumf (Host.absf (shapeCast _ (Host.divf x (broadcastInDim S4096x4096 ![0, 1] bcast_S1x4096_S4096x4096_0_1 (broadcastInDim S1x4096 ![1] bcast_S4096_S1x4096_1 sm))) shapeCasts_S4096x4096_S4096x64x64)) (constant S_ .f32 0xFF800000#32) reducesTo_S4096x64x64_S4096x64_d2 h_S_) (broadcastInDim S4096x64 ![] bcast_S_S4096x64 (constant S_ .f32 0x40E00000#32))) (broadcastInDim S4096x64 ![] bcast_S_S4096x64 (constant S_ .f32 0x322BCC77#32)))))) shapeCasts_S4096x64x64_S4096x4096

/-- The weights scaled by their group's row of scales, the scale rows given as a [64, 1, 4096] array. -/
def wdqOf (qw : (⟨S4096x4096, .i32⟩ : BufTy).Contents (Elt F)) (w3 : (⟨S64x1x4096, .f32⟩ : BufTy).Contents (Elt F)) :
    (⟨S4096x4096, .f32⟩ : BufTy).Contents (Elt F) :=
  shapeCast _ (mulf (shapeCast _ (sitofp .f32 qw) shapeCasts_S4096x4096_S64x64x4096) (broadcastInDim S64x64x4096 ![0, 1, 2] bcast_S64x1x4096_S64x64x4096_0_1_2 w3)) shapeCasts_S64x64x4096_S4096x4096

/-- The reference's weights: the scale rows spread by a broadcast along a new middle axis. -/
def wdq (qw : (⟨S4096x4096, .i32⟩ : BufTy).Contents (Elt F)) (ws : (⟨S64x4096, .f32⟩ : BufTy).Contents (Elt F)) :
    (⟨S4096x4096, .f32⟩ : BufTy).Contents (Elt F) :=
  wdqOf qw (broadcastInDim S64x1x4096 ![0, 2] bcast_S64x4096_S64x1x4096_0_2 ws)

/-- The low-rank down-projection of the activations: a [4096, 32] array. -/
def xd (x : (⟨S4096x4096, .f32⟩ : BufTy).Contents (Elt F)) (ld : (⟨S4096x32, .f32⟩ : BufTy).Contents (Elt F)) :
    (⟨S4096x32, .f32⟩ : BufTy).Contents (Elt F) :=
  Host.dotGeneral dot_S4096x4096_S4096x32_S4096x32_1_0_0_1_n_n none x ld

/-- The bias spread over the rows. -/
def biasAll (b : (⟨S4096, .f32⟩ : BufTy).Contents (Elt F)) : (⟨S4096x4096, .f32⟩ : BufTy).Contents (Elt F) :=
  broadcastInDim S4096x4096 ![0, 1] bcast_S1x4096_S4096x4096_0_1 (broadcastInDim S1x4096 ![1] bcast_S4096_S1x4096_1 b)

/-- The reference's result from the named intermediates. -/
def out (A W : (⟨S4096x4096, .f32⟩ : BufTy).Contents (Elt F)) (D : (⟨S4096x32, .f32⟩ : BufTy).Contents (Elt F))
    (lu : (⟨S32x4096, .f32⟩ : BufTy).Contents (Elt F)) (B : (⟨S4096x4096, .f32⟩ : BufTy).Contents (Elt F)) :
    (⟨S4096x4096, .f32⟩ : BufTy).Contents (Elt F) :=
  addf (addf (Host.dotGeneral dot_S4096x4096_S4096x4096_S4096x4096_1_0_0_1_n_n none A W) (Host.dotGeneral dot_S4096x32_S32x4096_S4096x4096_1_0_0_1_n_n none D lu)) B

end Cert.ReferenceIdeal.Hand
end
-- ==== Proof.LibTypedRef.lean ====
/-
  A typed reference to a buffer carries the equation between the buffer's type and the value's type, and a value
  crosses between the two by transport along it.  Carried to the buffer's type and back (or back and forth the other
  way) a value is unchanged.  A host line written over typed references wraps its function in one crossing per operand
  and one per result; when many such lines are read back as one composed term the crossings nest in pairs, result of
  one line against operand of the next, and rewriting with these equations removes every pair, leaving the plain
  composition of the lines' functions.
-/
import Idealize.ShloMosaic.Lib.StableHlo

namespace Cert.LibTypedRef

open Idealize.ShloMosaic Idealize.ShloMosaic.StableHlo

variable {sig : RefSig} {Val : EltTy → Type} {T : BufTy}

/-- A value carried to the buffer's own type and back is the value. -/
theorem ofBuf_toBuf (x : TRef sig T) (v : T.Contents Val) : x.ofBuf (x.toBuf v) = v := by
  obtain ⟨r, rfl, h2, h3⟩ := x
  rfl

/-- Contents of the buffer carried to the value's type and back are the contents. -/
theorem toBuf_ofBuf (x : TRef sig T) (v : x.ref.ty.Contents Val) : x.toBuf (x.ofBuf v) = v := by
  obtain ⟨r, rfl, h2, h3⟩ := x
  rfl

end Cert.LibTypedRef
-- ==== Proof.HostSide.lean ====
/-
  What the kernel's host lines leave in the four arrays the kernel's windows read, on the extended reals: the same
  whole-array functions of the arguments as the reference's intermediates (a change of float format being the
  identity), except that the scale rows reach the weight product through a reshape to [64, 1, 4096] and the bias reaches
  the kernel through a reshape to [1, 4096].  Each is read off the host lines' composed term; the lines are written over
  typed references, and the nested crossings between a buffer's type and its value's type are removed first.
-/
import proofs.«168063_j67439576481968_2_alg».proof.Proof.Gen.KernelIdeal.Frame.Runs
import proofs.«168063_j67439576481968_2_alg».proof.Proof.HostTerms
import proofs.«168063_j67439576481968_2_alg».proof.Proof.LibTypedRef
import Idealize.ShloMosaic.Lib.StableHlo.Run
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxRecDepth 8192 in
set_option maxHeartbeats 2000000 in
/-- The first matrix operand: the dequantized activations. -/
theorem V_xdq (c : Dev nD) : (V m c main_call0_v19 : S4096x4096.Idx → EReal)
    = Cert.ReferenceIdeal.Hand.xdq (F := Ideal) (m ((c : Thread nD τ).loc main_arg0)) (m ((c : Thread nD τ).loc main_arg5)) := by
  dsimp only [Gen.V, Gen.hostOps0]; after_results
  try simp only [Cert.LibTypedRef.ofBuf_toBuf]
  rfl

set_option maxRecDepth 8192 in
set_option maxHeartbeats 2000000 in
/-- The second matrix operand: the dequantized weights, the scale rows reshaped. -/
theorem V_wdq (c : Dev nD) : (V m c main_call0_v26 : S4096x4096.Idx → EReal)
    = Cert.ReferenceIdeal.Hand.wdqOf (F := Ideal) (m ((c : Thread nD τ).loc main_arg1))
        (shapeCast S64x1x4096 (m ((c : Thread nD τ).loc main_arg2)) shapeCasts_S64x4096_S64x1x4096) := by
  dsimp only [Gen.V, Gen.hostOps0]; after_results
  try simp only [Cert.LibTypedRef.ofBuf_toBuf]
  rfl

set_option maxRecDepth 8192 in
set_option maxHeartbeats 2000000 in
/-- The low-rank down-projection. -/
theorem V_xd (c : Dev nD) : (V m c main_call0_v27 : S4096x32.Idx → EReal)
    = Cert.ReferenceIdeal.Hand.xd (F := Ideal) (m ((c : Thread nD τ).loc main_arg0)) (m ((c : Thread nD τ).loc main_arg3)) := by
  dsimp only [Gen.V, Gen.hostOps0]; after_results
  try simp only [Cert.LibTypedRef.ofBuf_toBuf]
  rfl

set_option maxRecDepth 8192 in
set_option maxHeartbeats 2000000 in
/-- The bias as a one-row matrix. -/
theorem V_bias (c : Dev nD) : (V m c main_call0_v28 : S1x4096.Idx → EReal)
    = shapeCast S1x4096 (m ((c : Thread nD τ).loc main_arg6)) shapeCasts_S4096_S1x4096 := by
  dsimp only [Gen.V, Gen.hostOps0]; after_results
  try simp only [Cert.LibTypedRef.ofBuf_toBuf]
  rfl

end Cert.KernelIdeal.Hand
end
-- ==== Proof.LibUnitAxes.lean ====
/-
  Unit axes added, dropped and spread, read at an index given by its coordinates.
  A cast that adds or drops an axis of extent 1 keeps every entry where it was, and a broadcast
  along an axis of extent 1 repeats the operand along that axis: at an index the result is the
  operand at the index with the unit coordinate put at 0 (or dropped). Stated for any extents over
  the literal-rank index constructors `ix1`, `ix2`, `ix3`: a vector [a] as a column [a, 1] and back,
  a column [a, 1] spread to [a, b], a matrix [a, b] as [a, b, 1] and as [a, 1, b], an array
  [a, 1, c] spread to [a, b, c], an array [1, b, c] spread to [a, b, c].
-/
import Idealize.ShloMosaic.Lib.Pipeline.Value
import Idealize.ShloMosaic.Lib.ValueIdx

noncomputable section

namespace Cert.LibUnitAxes

open Idealize.ShloMosaic Idealize.ShloMosaic.ValueIdx

variable {α : Type}

/-- A vector [a] cast to a column [a, 1] reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] cast to a vector [a] reads, at p, the column at (p, 0). -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A column [a, 1] spread to [a, b] reads, at (p, c), the column at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix [a, b] cast to [a, b, 1] reads, at (p, q, u), the matrix at (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- A matrix [a, b] cast to [a, 1, b] reads, at (p, u, q), the matrix at (p, q). -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- An array [a, 1, c] spread to [a, b, c] reads, at (p, q, r), the operand at (p, 0, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- An array [1, b, c] spread to [a, b, c] reads, at (p, q, r), the operand at (0, q, r). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

end Cert.LibUnitAxes

end
-- ==== Proof.RefAt.lean ====
/-
  The reference's result read at one entry (R, C), on the extended reals, over its named intermediates: the sum over
  k of A(R, k) · W(k, C) plus the sum over r of D(R, r) · U(r, C), plus the bias's entry C; and the two spellings of
  the scale rows as a [64, 1, 4096] array (a reshape, a broadcast along a new middle axis) are one array.
-/
import proofs.«168063_j67439576481968_2_alg».proof.Proof.HostTerms
import proofs.«168063_j67439576481968_2_alg».proof.Proof.LibMatmulAt
import proofs.«168063_j67439576481968_2_alg».proof.Proof.LibUnitAxes
import Idealize.ShloMosaic.Lib.ValueIdx
import Idealize.ShloMosaic.Lib.ValueLayout
import Idealize.ShloMosaic.Lib.Pipeline.Value

noncomputable section

namespace Cert.ReferenceIdeal.Hand

open Cert.ReferenceIdeal Cert.ReferenceIdeal.Gen Idealize.ShloMosaic Idealize.ShloMosaic.ValueIdx

/-- The bias spread over the rows reads, at (R, C), the bias at C. -/
theorem biasAll_apply (b : FVec Ideal S4096 .f32) (R C : Fin 4096) : biasAll (F := Ideal) b (ix2 R C) = b (ix1 C) := by
  unfold biasAll
  refine (broadcastInDim_apply _ _ _ (ix2 R C) (ix2 (0 : Fin 1) C) fun a => ?_).trans
    (broadcastInDim_apply _ _ b (ix2 (0 : Fin 1) C) (ix1 C) fun a => ?_)
  · match a with
    | ⟨0, _⟩ => rfl
    | ⟨1, _⟩ => rfl
  · match a with
    | ⟨0, _⟩ => rfl

/-- The result at an entry. -/
theorem out_apply (A W : FVec Ideal S4096x4096 .f32) (D : FVec Ideal S4096x32 .f32) (lu : FVec Ideal S32x4096 .f32)
    (B : FVec Ideal S4096x4096 .f32) (R C : Fin 4096) :
    out (F := Ideal) A W D lu B (ix2 R C)
      = (∑ k : Fin 4096, A (ix2 R k) * W (ix2 k C) + ∑ r : Fin 32, D (ix2 R r) * lu (ix2 r C)) + B (ix2 R C) := by
  unfold out
  refine congrArg₂ (· + ·) (congrArg₂ (· + ·) ?_ ?_) rfl
  · exact Cert.KernelIdeal.Hand.dotGeneral_plain_apply' dot_S4096x4096_S4096x4096_S4096x4096_1_0_0_1_n_n rfl none A W (ix2 R C)
  · exact Cert.KernelIdeal.Hand.dotGeneral_plain_apply' dot_S4096x32_S32x4096_S4096x4096_1_0_0_1_n_n rfl none D lu (ix2 R C)

/-- The scale rows reshaped to [64, 1, 4096] are the scale rows broadcast along a new middle axis. -/
theorem scales_reshape_eq (ws : FVec Ideal S64x4096 .f32) (h : S64x4096.ShapeCasts S64x1x4096) :
    shapeCast S64x1x4096 ws h = broadcastInDim S64x1x4096 ![0, 2] bcast_S64x4096_S64x1x4096_0_2 ws := by
  funext i
  obtain ⟨a, u, b, rfl⟩ : ∃ (a : Fin 64) (u : Fin 1) (b : Fin 4096), i = ix3 a u b := ⟨i 0, i 1, i 2, eq_ix3 i⟩
  refine (Cert.LibUnitAxes.shapeCast_ab_a1b_apply ws h a u b).trans
    (broadcastInDim_apply _ _ ws (ix3 a u b) (ix2 a b) fun ax => ?_).symm
  match ax with
  | ⟨0, _⟩ => rfl
  | ⟨1, _⟩ => rfl

end Cert.ReferenceIdeal.Hand
end
-- ==== Proof.LibBlockSum.lean ====
/-
  A sum over 4096 positions taken in four consecutive stretches of 1024: the law that joins a contraction
  accumulated stretch by stretch with the contraction taken whole.  Only commutativity and associativity of
  the sum are used, so it holds in any additive commutative monoid — the extended reals included, with no
  finiteness hypothesis.
-/
import Mathlib.Algebra.BigOperators.Fin
import Mathlib.Algebra.BigOperators.Intervals

namespace Cert.BlockSum

variable {M : Type*} [AddCommMonoid M]

/-- A sum over the first `c * n` naturals is the sum, over the `c` stretches of length `n`, of each stretch's sum. -/
theorem sum_range_blocks (g : ℕ → M) (n : ℕ) :
    ∀ c : ℕ, ∑ k ∈ Finset.range (c * n), g k = ∑ s ∈ Finset.range c, ∑ l ∈ Finset.range n, g (n * s + l)
  | 0 => by simp
  | c + 1 => by
    rw [Nat.succ_mul, Finset.sum_range_add, sum_range_blocks g n c, Finset.sum_range_succ, Nat.mul_comm n c]

/-- The same with both index sets spelt as `Fin`: 4096 positions as four stretches of 1024. -/
theorem sum_fin_4096 (g : ℕ → M) :
    ∑ k : Fin 4096, g k.val = ∑ s ∈ Finset.range 4, ∑ l : Fin 1024, g (1024 * s + l.val) := by
  rw [Fin.sum_univ_eq_sum_range g 4096, show (4096 : ℕ) = 4 * 1024 from rfl, sum_range_blocks g 1024 4]
  refine Finset.sum_congr rfl fun s _ => ?_
  exact (Fin.sum_univ_eq_sum_range (fun l => g (1024 * s + l)) 1024).symm

end Cert.BlockSum
-- ==== Proof.KernelValue.lean ====
/-
  The kernel's output array after the run, on the extended reals.  The output tile (i, j) is written once, at the
  last of the four grid points of its run; its entry (p, s) is the accumulator's entry — the four contraction tiles'
  products summed in order from zero — plus the low-rank contraction plus the bias entry.  The four stretches of 1024
  contracted positions are the 4096 positions of the whole contraction taken in order, and a sum over them may be taken
  stretch by stretch (only commutativity and associativity of the sum are used), so the entry is the reference's entry
  (1024·i + p, 1024·j + s): the sum over all 4096 positions, plus the low-rank contraction, plus the bias.  The tiles
  cover the array, so the array ends at the reference's array.
-/
import proofs.«168063_j67439576481968_2_alg».proof.Proof.Gen.KernelIdeal.Value
import proofs.«168063_j67439576481968_2_alg».proof.Proof.Fold
import proofs.«168063_j67439576481968_2_alg».proof.Proof.Blocks
import proofs.«168063_j67439576481968_2_alg».proof.Proof.HostSide
import proofs.«168063_j67439576481968_2_alg».proof.Proof.RefAt
import proofs.«168063_j67439576481968_2_alg».proof.Proof.LibBlockSum
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- The dequantized activations, the dequantized weights and the down-projection of core `c`'s arguments. -/
abbrev actOf (c : Dev nD) : Cert.ReferenceIdeal.S4096x4096.Idx → EReal :=
  Cert.ReferenceIdeal.Hand.xdq (F := Ideal) (m ((c : Thread nD τ).loc main_arg0)) (m ((c : Thread nD τ).loc main_arg5))
abbrev wgtOf (c : Dev nD) : Cert.ReferenceIdeal.S4096x4096.Idx → EReal :=
  Cert.ReferenceIdeal.Hand.wdq (F := Ideal) (m ((c : Thread nD τ).loc main_arg1)) (m ((c : Thread nD τ).loc main_arg2))
abbrev downOf (c : Dev nD) : Cert.ReferenceIdeal.S4096x32.Idx → EReal :=
  Cert.ReferenceIdeal.Hand.xd (F := Ideal) (m ((c : Thread nD τ).loc main_arg0)) (m ((c : Thread nD τ).loc main_arg3))

/-- What the result array ends at: the reference's result over those intermediates. -/
def G (c : Dev nD) : Buf (Elt Ideal) ((c : Thread nD τ).loc main_v0) :=
  Cert.ReferenceIdeal.Hand.out (F := Ideal) (actOf m c) (wgtOf m c) (downOf m c) (m ((c : Thread nD τ).loc main_arg4))
    (Cert.ReferenceIdeal.Hand.biasAll (F := Ideal) (m ((c : Thread nD τ).loc main_arg6)))

/-- The kernel's weight operand is the reference's: the two spellings of the scale rows agree. -/
theorem V_wgt (c : Dev nD) : (V m c main_call0_v26 : S4096x4096.Idx → EReal) = wgtOf m c :=
  (V_wdq m c).trans (congrArg (Cert.ReferenceIdeal.Hand.wdqOf (F := Ideal) (m ((c : Thread nD τ).loc main_arg1)))
    (Cert.ReferenceIdeal.Hand.scales_reshape_eq (m ((c : Thread nD τ).loc main_arg2)) shapeCasts_S64x4096_S64x1x4096))

/-- The product at contracted position `k` for the entry (R, C), as a function of every natural (zero past 4096). -/
def prodAt (c : Dev nD) (R C : Fin 4096) (k : ℕ) : EReal :=
  if h : k < 4096 then actOf m c (ix2 R ⟨k, h⟩) * wgtOf m c (ix2 ⟨k, h⟩ C) else 0

theorem prodAt_of_lt (c : Dev nD) (R C : Fin 4096) (k : ℕ) (h : k < 4096) :
    prodAt m c R C k = actOf m c (ix2 R ⟨k, h⟩) * wgtOf m c (ix2 ⟨k, h⟩ C) := dif_pos h

/-- The four addends of a run are the whole contraction: the run's point κ contracts positions 1024·κ … 1024·κ + 1023. -/
theorem run_sum (c : Dev nD) (t : Fin cfg0.N) (p s : Fin 1024) (R C : Fin 4096)
    (hR : R.val = 1024 * (t.val / 16) + p.val) (hC : C.val = 1024 * (t.val / 4 % 4) + s.val) :
    ∑ κ ∈ Finset.range 4, addend m c (4 * (t.val / 4) + κ) (ix2 p s)
      = ∑ k : Fin 4096, actOf m c (ix2 R k) * wgtOf m c (ix2 k C) := by
  have hN : cfg0.N = 64 := N_0
  have ht := t.isLt
  have hg : ∑ k : Fin 4096, actOf m c (ix2 R k) * wgtOf m c (ix2 k C) = ∑ k : Fin 4096, prodAt m c R C k.val :=
    Finset.sum_congr rfl fun k _ => (prodAt_of_lt m c R C k.val k.isLt).symm
  rw [hg, Cert.BlockSum.sum_fin_4096]
  refine Finset.sum_congr rfl fun κ hκ => ?_
  have hκ4 : κ < 4 := Finset.mem_range.mp hκ
  have hn : 4 * (t.val / 4) + κ < cfg0.N := by omega
  rw [addend_apply m c _ hn (ix2 p s), contr_apply]
  refine Finset.sum_congr rfl fun l _ => ?_
  have hl := l.isLt
  have hK : 1024 * κ + l.val < 4096 := by omega
  rw [prodAt_of_lt m c R C _ hK]
  exact congrArg₂ (fun a b : EReal => a * b)
    ((iblk0_at m c ⟨_, hn⟩ p l R ⟨_, hK⟩ (by dsimp only; omega) (by dsimp only; omega)).trans (congrFun (V_xdq m c) _))
    ((iblk1_at m c ⟨_, hn⟩ l s ⟨_, hK⟩ C (by dsimp only; omega) (by dsimp only; omega)).trans (congrFun (V_wgt m c) _))

/-- WHAT A WRITE-BACK WRITES: at the last point of a run the output block is the reference's array read through the
    block's place. -/
theorem flushed_eq (c : Dev nD) (t : Fin cfg0.N) (hf : (cfg0.win 5).flush t = true) :
    (dats m 0 c).flushed 5 t = ((cfg0.win 5).blk t).view.read (Elt Ideal) (G m c) := by
  have h3 : t.val % 4 = 3 := (flush0_5 t).mp hf
  have hN : cfg0.N = 64 := N_0
  have ht := t.isLt
  obtain ⟨e00, e01, e10, e11, e20, e21, e30, e31, e40, e41, e50, e51⟩ := idx_facts t
  rw [Value.flushed5, out_last m c t h3]
  refine funext fun (y : S1024x1024.Idx) => ?_
  obtain ⟨p, s, rfl⟩ : ∃ (p s : Fin 1024), y = ix2 p s := ⟨y 0, y 1, eq_ix2 y⟩
  have hp := p.isLt
  have hs := s.isLt
  have hRlt : 1024 * (t.val / 16) + p.val < 4096 := by omega
  have hClt : 1024 * (t.val / 4 % 4) + s.val < 4096 := by omega
  have hemb : ((cfg0.win 5).blk t).view.emb (ix2 p s) = (ix2 ⟨_, hRlt⟩ ⟨_, hClt⟩ : S4096x4096.Idx) :=
    funext fun a => Fin.ext (by
      match a with
      | ⟨0, _⟩ => show win0_5.index t (0 : Fin 2) * 1024 + 1 * p.val = 1024 * (t.val / 16) + p.val; omega
      | ⟨1, _⟩ => show win0_5.index t (1 : Fin 2) * 1024 + 1 * s.val = 1024 * (t.val / 4 % 4) + s.val; omega)
  show k0_pay3 (F := Ideal) (iblk m c 2 t) (iblk m c 3 t) ((outsAt0 m c t.val t.isLt).2) (iblk m c 4 t) (ix2 p s)
      = G m c (((cfg0.win 5).blk t).view.emb (ix2 p s))
  rw [hemb]
  refine (pay3_apply (iblk m c 2 t) (iblk m c 3 t) _ (iblk m c 4 t) p s).trans ?_
  rw [scratch_last m c t h3 p s, zero_add]
  unfold G
  rw [Cert.ReferenceIdeal.Hand.out_apply, Cert.ReferenceIdeal.Hand.biasAll_apply]
  refine congrArg₂ (fun a b : EReal => a + b) (congrArg₂ (fun a b : EReal => a + b) ?_ (Finset.sum_congr rfl fun r _ => ?_)) ?_
  · exact run_sum m c t p s _ _ rfl rfl
  · exact congrArg₂ (fun a b : EReal => a * b)
      ((iblk2_at m c t p r ⟨_, hRlt⟩ r rfl (Nat.zero_add _).symm).trans (congrFun (V_xd m c) _))
      ((iblk3_at m c t r s r ⟨_, hClt⟩ (Nat.zero_add _).symm rfl).trans (congrFun (V_main_arg4 m c) _))
  · exact (iblk4_at m c t 0 s 0 ⟨_, hClt⟩ (Nat.zero_add _).symm rfl).trans
      ((congrFun (V_bias m c) _).trans (shapeCast_a_1a_apply _ _ 0 _))

/-- The output tiles cover the array: the entry (r, c') is in the tile (r / 1024, c' / 1024), written back at the
    last point of that tile's run. -/
theorem cover (c : Dev nD) (i : S4096x4096.Idx) :
    ∃ t : Fin cfg0.N, (cfg0.win 5).flush t = true ∧ i ∈ ((cfg0.win 5).blk t).view.set := by
  have hN : cfg0.N = 64 := N_0
  have h0 : (i 0).val < 4096 := (i 0).isLt
  have h1 : (i 1).val < 4096 := (i 1).isLt
  obtain ⟨tv, htv⟩ : ∃ tv, tv = 16 * ((i 0).val / 1024) + 4 * ((i 1).val / 1024) + 3 := ⟨_, rfl⟩
  have hlt : tv < cfg0.N := by omega
  obtain ⟨-, -, -, -, -, -, -, -, -, -, e50, e51⟩ := idx_facts ⟨tv, hlt⟩
  have e50' : win0_5.index ⟨tv, hlt⟩ (0 : Fin 2) = tv / 16 := e50
  have e51' : win0_5.index ⟨tv, hlt⟩ (1 : Fin 2) = tv / 4 % 4 := e51
  refine ⟨⟨tv, hlt⟩, (flush0_5 _).mpr (by show tv % 4 = 3; omega), ?_⟩
  show i ∈ ((View.whole main_v0).slice (win0_5.rect ⟨tv, hlt⟩)).set
  rw [View.set_slice_whole, Rect.mem_set_unit]
  intro a
  match a with
  | ⟨0, _⟩ =>
    show win0_5.index ⟨tv, hlt⟩ (0 : Fin 2) * 1024 ≤ (i 0).val ∧ (i 0).val < win0_5.index ⟨tv, hlt⟩ (0 : Fin 2) * 1024 + 1024
    rw [e50']; omega
  | ⟨1, _⟩ =>
    show win0_5.index ⟨tv, hlt⟩ (1 : Fin 2) * 1024 ≤ (i 1).val ∧ (i 1).val < win0_5.index ⟨tv, hlt⟩ (1 : Fin 2) * 1024 + 1024
    rw [e51']; omega

/-- The result array after the run. -/
theorem final (c : Dev nD) : (dats m 0 c).arrAt 5 cfg0.N = G m c :=
  (dats m 0 c).arrAt_eq_of_cover 5 (G m c) (flushed_eq m c) (cover c)

/-- The run, read: the result array at the reference's function of the arguments, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Hand
end
-- ==== Proof.lean ====
/-
  Dequantize-and-multiply with a low-rank residual: out = A_dq · W_dq + (x · L_down) · L_up + bias, where A_dq is x
  divided by the smoothing row, quantized per group of 64 to integers in [-8, 7] and scaled back, and W_dq the integer
  weights times their group's scale row.

  The kernel computes the host part (A_dq, W_dq, x · L_down, the bias as a one-row matrix) with the same operations as
  the reference, then tiles the product: for each output tile of 1024 × 1024 it accumulates the four contraction tiles'
  products into a scratch block from zero and, at the last, adds the low-rank product of the tile's two small blocks and
  the bias row.  On the extended reals a change of float format is the identity, a product into the zero block is the
  plain contraction, and a sum of 4096 terms may be taken in four stretches of 1024: so every entry of the kernel's result
  is the reference's entry.  No finiteness of the inputs is used: only that addition is commutative and associative.

  The three frames: the two kernels' are the generated frame runs; the reference's is its run with the result dropped.
  The idealized kernel is the kernel's own text read on the extended reals (nothing was rewritten).
-/
import proofs.«168063_j67439576481968_2_alg».proof.Defs
import proofs.«168063_j67439576481968_2_alg».proof.Proof.Gen.Kernel
import proofs.«168063_j67439576481968_2_alg».proof.Proof.Gen.Kernel.Skeleton
import proofs.«168063_j67439576481968_2_alg».proof.Proof.Gen.Kernel.Launch
import proofs.«168063_j67439576481968_2_alg».proof.Proof.Gen.Kernel.Points
import proofs.«168063_j67439576481968_2_alg».proof.Proof.Gen.Kernel.Frame
import proofs.«168063_j67439576481968_2_alg».proof.Proof.Gen.KernelIdeal
import proofs.«168063_j67439576481968_2_alg».proof.Proof.Gen.KernelIdeal.Skeleton
import proofs.«168063_j67439576481968_2_alg».proof.Proof.Gen.KernelIdeal.Launch
import proofs.«168063_j67439576481968_2_alg».proof.Proof.Gen.KernelIdeal.Points
import proofs.«168063_j67439576481968_2_alg».proof.Proof.Gen.KernelIdeal.Frame
import proofs.«168063_j67439576481968_2_alg».proof.Proof.Gen.ReferenceIdeal
import proofs.«168063_j67439576481968_2_alg».proof.Proof.Gen.Pre_finite_inputs
import proofs.«168063_j67439576481968_2_alg».proof.Proof.Gen.KernelIdeal.Value
import proofs.«168063_j67439576481968_2_alg».proof.Proof.Gen.ReferenceIdeal.Run
import proofs.«168063_j67439576481968_2_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals the kernel's result array ends at the reference's function of the arguments, and the
    reference's run ends at that function of arguments that agree. -/
theorem algebraic : Cert.algebraic_KernelIdeal_ReferenceIdeal := by
  intro m ρ m' ρ' _ hagree
  refine ⟨fun c => Cert.KernelIdeal.Hand.G m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
